-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S1024x1024 .f32) (main_arg3 : FVec F S1024 .f32) (main_arg4 : FVec F S512x512 .f32) (main_arg5 : FVec F S512 .f32) (main_arg6 : FVec F S512x512 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16384x512 : Shape := ⟨2, ![16384, 512]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S1024x512 : Shape := ⟨2, ![1024, 512]⟩
abbrev S512x1024 : Shape := ⟨2, ![512, 1024]⟩
abbrev S512x1536 : Shape := ⟨2, ![512, 1536]⟩
abbrev S1x1024 : Shape := ⟨2, ![1, 1024]⟩
abbrev S1x512 : Shape := ⟨2, ![1, 512]⟩
abbrev S1024x1536 : Shape := ⟨2, ![1024, 1536]⟩

abbrev nBuf : Space → Nat
  | .hbm => 22
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S512x1024, .f32⟩
  | .hbm, ⟨12, _⟩ => ⟨S512x512, .f32⟩
  | .hbm, ⟨13, _⟩ => ⟨S512x512, .f32⟩
  | .hbm, ⟨14, _⟩ => ⟨S512x1536, .f32⟩
  | .hbm, ⟨15, _⟩ => ⟨S512x1536, .bf16⟩
  | .hbm, ⟨16, _⟩ => ⟨S512x1536, .f32⟩
  | .hbm, ⟨17, _⟩ => ⟨S512x1536, .bf16⟩
  | .hbm, ⟨18, _⟩ => ⟨S1x1024, .f32⟩
  | .hbm, ⟨19, _⟩ => ⟨S1x512, .f32⟩
  | .hbm, ⟨20, _⟩ => ⟨S1x512, .f32⟩
  | .hbm, ⟨21, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1536, .bf16⟩
  | .local _ .vmem, ⟨5, _⟩ => ⟨S512x1536, .bf16⟩
  | .local _ .vmem, ⟨6, _⟩ => ⟨S1x1024, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x1024_S1024x512_0_0 : S1024x1024.Slices ![0, 0] S1024x512
  transposes_S1024x512_S512x1024_1_0 : S1024x512.Transposes [1, 0] S512x1024
  slices_S1024x1024_S1024x512_0_512 : S1024x1024.Slices ![0, 512] S1024x512
  transposes_S512x512_S512x512_1_0 : S512x512.Transposes [1, 0] S512x512
  concatenates_S512x1024_S512x512_S512x1536_d1 : Shape.Concatenates [S512x1024, S512x512] S512x1536 1
  bitsLt_bf16_f32 : FTy.bits .bf16 < FTy.bits .f32
  shapeCasts_S1024_S1x1024 : S1024.ShapeCasts S1x1024
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1024x1536_o0_0_S1024x1024 : S1024x1536.Slices ![0, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  slices_S1024x1536_o0_1024_S1024x512 : S1024x1536.Slices ![0, 1024] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S16384x1024 : Shape := ⟨2, ![16384, 1024]⟩
abbrev S1x1024 : Shape := ⟨2, ![1, 1024]⟩
abbrev S_ : Shape := ⟨0, ![]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S512x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S512x512, .f32⟩
  | .hbm, ⟨38, _⟩ => ⟨S16384x512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x1024_S16384x512_0_0 : S16384x1024.Slices ![0, 0] S16384x512
  bcast_S_S16384x512 : S_.BroadcastsInDim S16384x512 (![] : Fin 0 → Fin S16384x512.rank)
  slices_S16384x1024_S16384x512_0_512 : S16384x1024.Slices ![0, 512] S16384x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x1024_S1024x1024_S16384x1024_1_0_0_1_n_n_wf : DotDims.WF S16384x1024 S1024x1024 S16384x1024 [1] [0] [0] [1] [] []
  dot_S16384x512_S512x512_S16384x512_1_0_0_1_n_n_wf : DotDims.WF S16384x512 S512x512 S16384x512 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.Spec.lean ====
/-
  The gated recurrent cell as ONE function of its eight argument arrays, index by index, on the extended reals.

  For a batch row `b` and a hidden column `q < 512`, with `x = input[b, :]`, `h = hidden[b, :]`:
    gate j = (∑ₖ x k · W_gate[j, k]) + (∑ₖ h k · W_gate[j, 512 + k]) + b_gate[j]          (j < 1024)
    r = logistic (gate q),   z = logistic (gate (512 + q))
    ig = (∑ₖ x k · W_i[q, k]) + b_i[q],   hg = (∑ₖ h k · W_h[q, k]) + b_h[q]
    n = tanh (ig + r · hg)
    out[b, q] = (1 − z) · n + z · h q.
  `cell` is that formula over a row of `x`, a row of `h` and the weights given as functions of coordinates,
  so that the two programs' different layouts of the weights (the reference's one [1024, 1024] product over the
  joined row `[x | h]`, the kernel's two [512, 1536] column-packed products) are both instances of it.
  Also here: a sum over 1024 consecutive positions as its two halves, and the expanded sigmoid
  `1 / (1 + e^(−g))` as `logistic g`.
-/
import Idealize.ShloMosaic.PureOps.Ideal
import Idealize.ShloMosaic.Lib.ValueIdx

noncomputable section

namespace Cert.Gru

open Idealize.ShloMosaic Idealize.ShloMosaic.ValueIdx

/-- The f32 word of `1.0`, as both programs spell it. -/
abbrev one : EReal := Ideal.ofBits .f32 0x3F800000#32

/-- It denotes the extended real `1`. -/
theorem one_eq : one = 1 := by
  simp [Ideal.ofBits, Ideal.ieee, -EReal.coe_mul]; norm_num

/-- Column `q` of the first half of a 1024-wide axis. -/
def lo (q : Fin 512) : Fin 1024 := ⟨q.val, by omega⟩
/-- Column `q` of the second half of a 1024-wide axis. -/
def hi (q : Fin 512) : Fin 1024 := ⟨512 + q.val, by omega⟩

/-- Gate column `j` of a column-packed [512, 1536] weight `[gate part | candidate part]`. -/
def gcol (j : Fin 1024) : Fin 1536 := ⟨j.val, by omega⟩
/-- Candidate column `q` of a column-packed [512, 1536] weight: after the 1024 gate columns. -/
def ccol (q : Fin 512) : Fin 1536 := ⟨1024 + q.val, by omega⟩

@[simp] theorem lo_val (q : Fin 512) : (lo q).val = q.val := rfl
@[simp] theorem hi_val (q : Fin 512) : (hi q).val = 512 + q.val := rfl

/-- A sum over 1024 consecutive positions is the sum over its first half plus the sum over its second half
    (commutative monoid: nothing about finiteness is asked of the summands). -/
theorem sum_halves {M : Type*} [AddCommMonoid M] (f : Fin 1024 → M) :
    ∑ k : Fin 1024, f k = ∑ k : Fin 512, f (lo k) + ∑ k : Fin 512, f (hi k) :=
  Fin.sum_univ_add (a := 512) (b := 512) f

/-- The sigmoid written out as jax expands it, `1 / (1 + e^(−g))` with both ones the f32 word, is `logistic g`. -/
theorem sigmoid_expanded (g : EReal) : Ideal.div one (one + Ideal.exp (-g)) = Ideal.logistic g := by
  rw [one_eq]; rfl

/-- One output element from a row of `x`, a row of `h` and the weights as functions of coordinates: `wgx j k` and
    `wgh j k` the gate weights meeting `x k` and `h k` in gate column `j`, `wi q k` and `wh q k` the candidate's. -/
def cell (xr hr : Fin 512 → EReal) (wgx wgh : Fin 1024 → Fin 512 → EReal) (bg : Fin 1024 → EReal)
    (wi wh : Fin 512 → Fin 512 → EReal) (bi bh : Fin 512 → EReal) (q : Fin 512) : EReal :=
  (one - Ideal.logistic ((∑ k : Fin 512, xr k * wgx (hi q) k) + (∑ k : Fin 512, hr k * wgh (hi q) k) + bg (hi q)))
      * Ideal.tanh (((∑ k : Fin 512, xr k * wi q k) + bi q)
          + Ideal.logistic ((∑ k : Fin 512, xr k * wgx (lo q) k) + (∑ k : Fin 512, hr k * wgh (lo q) k) + bg (lo q))
            * ((∑ k : Fin 512, hr k * wh q k) + bh q))
    + Ideal.logistic ((∑ k : Fin 512, xr k * wgx (hi q) k) + (∑ k : Fin 512, hr k * wgh (hi q) k) + bg (hi q)) * hr q

/-- `cell` of pointwise equal data. -/
theorem cell_congr {xr xr' hr hr' : Fin 512 → EReal} {wgx wgx' wgh wgh' : Fin 1024 → Fin 512 → EReal} {bg bg' : Fin 1024 → EReal}
    {wi wi' wh wh' : Fin 512 → Fin 512 → EReal} {bi bi' bh bh' : Fin 512 → EReal} (q : Fin 512)
    (h1 : ∀ k, xr k = xr' k) (h2 : ∀ k, hr k = hr' k) (h3 : ∀ j k, wgx j k = wgx' j k) (h4 : ∀ j k, wgh j k = wgh' j k)
    (h5 : ∀ j, bg j = bg' j) (h6 : ∀ j k, wi j k = wi' j k) (h7 : ∀ j k, wh j k = wh' j k) (h8 : ∀ j, bi j = bi' j)
    (h9 : ∀ j, bh j = bh' j) :
    cell xr hr wgx wgh bg wi wh bi bh q = cell xr' hr' wgx' wgh' bg' wi' wh' bi' bh' q := by
  obtain rfl : xr = xr' := funext h1
  obtain rfl : hr = hr' := funext h2
  obtain rfl : wgx = wgx' := funext fun j => funext (h3 j)
  obtain rfl : wgh = wgh' := funext fun j => funext (h4 j)
  obtain rfl : bg = bg' := funext h5
  obtain rfl : wi = wi' := funext fun j => funext (h6 j)
  obtain rfl : wh = wh' := funext fun j => funext (h7 j)
  obtain rfl : bi = bi' := funext h8
  obtain rfl : bh = bh' := funext h9
  rfl

/-- THE SPECIFICATION: the new hidden state, element `(b, q)`, from the eight argument arrays. -/
def newHiddenAt (X H : FVec Ideal ⟨2, ![16384, 512]⟩ .f32) (Wg : FVec Ideal ⟨2, ![1024, 1024]⟩ .f32) (bg : FVec Ideal ⟨1, ![1024]⟩ .f32)
    (Wi : FVec Ideal ⟨2, ![512, 512]⟩ .f32) (bi : FVec Ideal ⟨1, ![512]⟩ .f32) (Wh : FVec Ideal ⟨2, ![512, 512]⟩ .f32)
    (bh : FVec Ideal ⟨1, ![512]⟩ .f32) (b : Fin 16384) (q : Fin 512) : EReal :=
  cell (fun k => X (ix2 b k)) (fun k => H (ix2 b k)) (fun j k => Wg (ix2 j (lo k))) (fun j k => Wg (ix2 j (hi k)))
    (fun j => bg (ix1 j)) (fun j k => Wi (ix2 j k)) (fun j k => Wh (ix2 j k)) (fun j => bi (ix1 j)) (fun j => bh (ix1 j)) q

/-- The same as an array. -/
def newHidden (X H : FVec Ideal ⟨2, ![16384, 512]⟩ .f32) (Wg : FVec Ideal ⟨2, ![1024, 1024]⟩ .f32) (bg : FVec Ideal ⟨1, ![1024]⟩ .f32)
    (Wi : FVec Ideal ⟨2, ![512, 512]⟩ .f32) (bi : FVec Ideal ⟨1, ![512]⟩ .f32) (Wh : FVec Ideal ⟨2, ![512, 512]⟩ .f32)
    (bh : FVec Ideal ⟨1, ![512]⟩ .f32) : FVec Ideal ⟨2, ![16384, 512]⟩ .f32 :=
  fun i => newHiddenAt X H Wg bg Wi bi Wh bh (i 0) (i 1)

theorem newHidden_ix2 (X H : FVec Ideal ⟨2, ![16384, 512]⟩ .f32) (Wg : FVec Ideal ⟨2, ![1024, 1024]⟩ .f32) (bg : FVec Ideal ⟨1, ![1024]⟩ .f32)
    (Wi : FVec Ideal ⟨2, ![512, 512]⟩ .f32) (bi : FVec Ideal ⟨1, ![512]⟩ .f32) (Wh : FVec Ideal ⟨2, ![512, 512]⟩ .f32)
    (bh : FVec Ideal ⟨1, ![512]⟩ .f32) (b : Fin 16384) (q : Fin 512) :
    newHidden X H Wg bg Wi bi Wh bh (ix2 b q) = newHiddenAt X H Wg bg Wi bi Wh bh b q := rfl

end Cert.Gru

end
-- ==== Proof.RefValue.lean ====
/-
  The reference computes the specification: its result array, read index by index through the generated
  one-operation-at-a-time lemmas, is `Cert.Gru.newHidden` of the arguments.

  The reference joins each input row with its hidden row, `[x | h]` of width 1024, and multiplies by the transposed
  gate matrix: element `(b, j)` is `∑_{k < 1024} [x | h] k · W_gate[j, k]`. Split at `k = 512` this is the
  specification's `∑ₖ x k · W_gate[j, k] + ∑ₖ h k · W_gate[j, 512 + k]` (a regrouping of one sum: no
  finiteness is needed). Its sigmoids are spelt `1 / (1 + e^(−g))`, which is `logistic g`; the candidate's two
  products and the final blend are the specification's literally.
-/
import proofs.«175805_j87703232184582_2_alg».proof.Proof.Gen.ReferenceIdeal.Read
import proofs.«175805_j87703232184582_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx Cert.Gru

variable (x0 x1 : (⟨S16384x512, .f32⟩ : BufTy).Contents (Elt Ideal)) (x2 : (⟨S1024x1024, .f32⟩ : BufTy).Contents (Elt Ideal))
  (x3 : (⟨S1024, .f32⟩ : BufTy).Contents (Elt Ideal)) (x4 : (⟨S512x512, .f32⟩ : BufTy).Contents (Elt Ideal))
  (x5 : (⟨S512, .f32⟩ : BufTy).Contents (Elt Ideal)) (x6 : (⟨S512x512, .f32⟩ : BufTy).Contents (Elt Ideal))
  (x7 : (⟨S512, .f32⟩ : BufTy).Contents (Elt Ideal))

/-! ## The joined row `[x | h]` -/

/-- Left of column 512 the joined row is the input row. -/
theorem joined_lo (b : Fin 16384) (k : Fin 512) : val_main_v0 (F := Ideal) x0 x1 (ix2 b (lo k)) = x0 (ix2 b k) := by
  unfold val_main_v0
  exact concatenate_pair_apply_left (1 : Fin 2) x0 x1 _ (ix2 b (lo k)) rfl (ix2 b k)
    (fun a => match a with | ⟨0, _⟩ => rfl | ⟨1, _⟩ => rfl)

/-- From column 512 on it is the hidden row. -/
theorem joined_hi (b : Fin 16384) (k : Fin 512) : val_main_v0 (F := Ideal) x0 x1 (ix2 b (hi k)) = x1 (ix2 b k) := by
  unfold val_main_v0
  exact concatenate_pair_apply_right (1 : Fin 2) x0 x1 _ (ix2 b (hi k)) rfl rfl (ix2 b k)
    (fun a ha => match a, ha with | ⟨0, _⟩, _ => rfl | ⟨1, _⟩, ha => absurd rfl ha)
    (by show k.val + 512 = 512 + k.val; omega)

/-! ## The printed index maps at coordinates -/

theorem lidx2 (b : Fin 16384) (j k : Fin 1024) : lidx_main_v2 (ix2 b j) k = ix2 b k :=
  funext fun a => Fin.ext (by match a with | ⟨0, _⟩ => rfl | ⟨1, _⟩ => rfl)
theorem ridx2 (b : Fin 16384) (j k : Fin 1024) : ridx_main_v2 (ix2 b j) k = ix2 k j :=
  funext fun a => Fin.ext (by match a with | ⟨0, _⟩ => rfl | ⟨1, _⟩ => rfl)
theorem idx1 (k j : Fin 1024) : idx_main_v1 (ix2 k j) = ix2 j k :=
  funext fun a => Fin.ext (by match a with | ⟨0, _⟩ => rfl | ⟨1, _⟩ => rfl)
theorem idx4 (b : Fin 16384) (j : Fin 1024) : idx_main_v4 (ix2 b j) = ix2 (0 : Fin 1) j :=
  funext fun a => Fin.ext (by match a with | ⟨0, _⟩ => rfl | ⟨1, _⟩ => rfl)
theorem idx3 (u : Fin 1) (j : Fin 1024) : idx_main_v3 (ix2 u j) = ix1 j :=
  funext fun a => Fin.ext (by match a with | ⟨0, _⟩ => rfl)
theorem idx6 (b : Fin 16384) (q : Fin 512) : idx_main_v6 (ix2 b q) = ix2 b (lo q) :=
  funext fun a => Fin.ext (by match a with | ⟨0, _⟩ => rfl | ⟨1, _⟩ => rfl)
theorem idx13 (b : Fin 16384) (q : Fin 512) : idx_main_v13 (ix2 b q) = ix2 b (hi q) :=
  funext fun a => Fin.ext (by match a with | ⟨0, _⟩ => rfl | ⟨1, _⟩ => rfl)
theorem lidx21 (b : Fin 16384) (q k : Fin 512) : lidx_main_v21 (ix2 b q) k = ix2 b k :=
  funext fun a => Fin.ext (by match a with | ⟨0, _⟩ => rfl | ⟨1, _⟩ => rfl)
theorem ridx21 (b : Fin 16384) (q k : Fin 512) : ridx_main_v21 (ix2 b q) k = ix2 k q :=
  funext fun a => Fin.ext (by match a with | ⟨0, _⟩ => rfl | ⟨1, _⟩ => rfl)
theorem idx20 (k q : Fin 512) : idx_main_v20 (ix2 k q) = ix2 q k :=
  funext fun a => Fin.ext (by match a with | ⟨0, _⟩ => rfl | ⟨1, _⟩ => rfl)
theorem idx23 (b : Fin 16384) (q : Fin 512) : idx_main_v23 (ix2 b q) = ix2 (0 : Fin 1) q :=
  funext fun a => Fin.ext (by match a with | ⟨0, _⟩ => rfl | ⟨1, _⟩ => rfl)
theorem idx22 (u : Fin 1) (q : Fin 512) : idx_main_v22 (ix2 u q) = ix1 q :=
  funext fun a => Fin.ext (by match a with | ⟨0, _⟩ => rfl)

/-! ## The gate pre-activations -/

/-- Gate column `j` of batch row `b`, before the sigmoid. -/
def gate (b : Fin 16384) (j : Fin 1024) : EReal :=
  (∑ k : Fin 512, x0 (ix2 b k) * x2 (ix2 j (lo k))) + (∑ k : Fin 512, x1 (ix2 b k) * x2 (ix2 j (hi k))) + x3 (ix1 j)

/-- The reference's `[x | h] · W_gateᵀ + b_gate` at `(b, j)`: its one sum over 1024 positions split at 512. -/
theorem gates_at (b : Fin 16384) (j : Fin 1024) :
    val_main_v5 (F := Ideal) x0 x1 x2 x3 (ix2 b j) = gate x0 x1 x2 x3 b j := by
  rw [val_main_v5_apply, val_main_v2_apply, val_main_v4_apply, val_main_v3_apply, idx4, idx3, sum_halves]
  unfold gate
  refine congrArg₂ (· + ·) (congrArg₂ (· + ·) (Finset.sum_congr rfl fun k _ => ?_) (Finset.sum_congr rfl fun k _ => ?_)) rfl
  · rw [lidx2, ridx2, val_main_v1_apply, idx1, joined_lo]
  · rw [lidx2, ridx2, val_main_v1_apply, idx1, joined_hi]

/-- The reset gate: the expanded sigmoid of gate column `q`. -/
theorem r_at (b : Fin 16384) (q : Fin 512) :
    val_main_v12 (F := Ideal) x0 x1 x2 x3 (ix2 b q) = Ideal.logistic (gate x0 x1 x2 x3 b (lo q)) := by
  rw [val_main_v12_apply, val_main_v11_apply, val_main_cst_0_apply, val_main_v10_apply, val_main_v9_apply, val_main_cst_apply,
    val_main_v8_apply, val_main_v7_apply, val_main_v6_apply, idx6, gates_at]
  exact sigmoid_expanded _

/-- The update gate: the expanded sigmoid of gate column `512 + q`. -/
theorem z_at (b : Fin 16384) (q : Fin 512) :
    val_main_v19 (F := Ideal) x0 x1 x2 x3 (ix2 b q) = Ideal.logistic (gate x0 x1 x2 x3 b (hi q)) := by
  rw [val_main_v19_apply, val_main_v18_apply, val_main_cst_2_apply, val_main_v17_apply, val_main_v16_apply, val_main_cst_1_apply,
    val_main_v15_apply, val_main_v14_apply, val_main_v13_apply, idx13, gates_at]
  exact sigmoid_expanded _

/-! ## The candidate's two linear maps -/

theorem i_at (b : Fin 16384) (q : Fin 512) :
    val_main_v24 (F := Ideal) x0 x4 x5 (ix2 b q) = (∑ k : Fin 512, x0 (ix2 b k) * x4 (ix2 q k)) + x5 (ix1 q) := by
  rw [val_main_v24_apply, val_main_v21_apply, val_main_v23_apply, val_main_v22_apply, idx23, idx22]
  refine congrArg₂ (· + ·) (Finset.sum_congr rfl fun k _ => ?_) rfl
  rw [lidx21, ridx21, val_main_v20_apply, idx20]

theorem lidx26 (b : Fin 16384) (q k : Fin 512) : lidx_main_v26 (ix2 b q) k = ix2 b k :=
  funext fun a => Fin.ext (by match a with | ⟨0, _⟩ => rfl | ⟨1, _⟩ => rfl)
theorem ridx26 (b : Fin 16384) (q k : Fin 512) : ridx_main_v26 (ix2 b q) k = ix2 k q :=
  funext fun a => Fin.ext (by match a with | ⟨0, _⟩ => rfl | ⟨1, _⟩ => rfl)
theorem idx25 (k q : Fin 512) : idx_main_v25 (ix2 k q) = ix2 q k :=
  funext fun a => Fin.ext (by match a with | ⟨0, _⟩ => rfl | ⟨1, _⟩ => rfl)
theorem idx28 (b : Fin 16384) (q : Fin 512) : idx_main_v28 (ix2 b q) = ix2 (0 : Fin 1) q :=
  funext fun a => Fin.ext (by match a with | ⟨0, _⟩ => rfl | ⟨1, _⟩ => rfl)
theorem idx27 (u : Fin 1) (q : Fin 512) : idx_main_v27 (ix2 u q) = ix1 q :=
  funext fun a => Fin.ext (by match a with | ⟨0, _⟩ => rfl)

theorem h_at (b : Fin 16384) (q : Fin 512) :
    val_main_v29 (F := Ideal) x1 x6 x7 (ix2 b q) = (∑ k : Fin 512, x1 (ix2 b k) * x6 (ix2 q k)) + x7 (ix1 q) := by
  rw [val_main_v29_apply, val_main_v26_apply, val_main_v28_apply, val_main_v27_apply, idx28, idx27]
  refine congrArg₂ (· + ·) (Finset.sum_congr rfl fun k _ => ?_) rfl
  rw [lidx26, ridx26, val_main_v25_apply, idx25]

/-! ## The result -/

/-- THE REFERENCE IS THE SPECIFICATION. -/
theorem result_eq : val_main_v37 (F := Ideal) x0 x1 x2 x3 x4 x5 x6 x7 = newHidden x0 x1 x2 x3 x4 x5 x6 x7 := by
  funext i
  obtain ⟨b, q, rfl⟩ : ∃ (b : Fin 16384) (q : Fin 512), i = ix2 b q := ⟨i 0, i 1, eq_ix2 i⟩
  rw [newHidden_ix2, val_main_v37_apply, val_main_v35_apply, val_main_v36_apply, val_main_v34_apply, val_main_v33_apply,
    val_main_cst_3_apply, val_main_v32_apply, val_main_v31_apply, val_main_v30_apply, r_at, z_at, i_at, h_at]
  rfl

end Cert.ReferenceIdeal.RefValue

end
-- ==== Proof.KernelCell.lean ====
/-
  What the kernel body computes at one element of its [1024, 512] output block.

  The body forms two products with column-packed weights, `Px = x · Wx` and `Ph = h · Whh` ([1024, 512] · [512, 1536],
  operands rounded to bf16 on the way in, which at the ideal values is the identity, accumulated into a zero
  splat), and slices them: columns [0, 1024) are the gate pre-activations' two halves, columns [1024, 1536) the
  candidate's input and hidden parts. At `(p, q)` a `tpu.matmul` into zero is the plain sum over the contraction
  coordinate, a column slice reads its operand at the shifted column, a [1, n] row broadcast over the rows reads
  the row, and everything else is elementwise — so the stored value at `(p, q)` is `Cert.Gru.cell` of row `p` of the
  two activation blocks and of the packed weights read at columns `j` (gates) and `1024 + q` (candidate).
-/
import proofs.«175805_j87703232184582_2_alg».proof.Proof.Gen.KernelIdeal.Skeleton
import proofs.«175805_j87703232184582_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Gru

/-- The body's one contraction: rows of a [1024, 512] block against columns of a [512, 1536] weight. -/
abbrev D : DotDims S1024x512 S512x1536 S1024x1536 := dot_S1024x512_S512x1536_S1024x1536_1_0_0_1_n_n

/-! ## The product at an element -/

theorem lhs0 (i : S1024x1536.Idx) (c : D.contr.Idx) : (D.lhsIdx i c 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs1 (i : S1024x1536.Idx) (c : D.contr.Idx) : (D.lhsIdx i c 1).val = (c ⟨0, by decide⟩).val :=
  D.lhsIdx_val_of_single rfl i c
theorem rhs0 (i : S1024x1536.Idx) (c : D.contr.Idx) : (D.rhsIdx i c 0).val = (c ⟨0, by decide⟩).val :=
  D.rhsIdx_val_of_single rfl i c
theorem rhs1 (i : S1024x1536.Idx) (c : D.contr.Idx) : (D.rhsIdx i c 1).val = (i 1).val := by
  unfold DotDims.rhsIdx
  rw [dif_neg (show ¬(1 : Fin S512x1536.rank) ∈ D.rhsBatch by decide), dif_pos (show (1 : Fin S512x1536.rank) ∈ D.rhsNonContracting by decide)]
  rfl

/-- A `tpu.matmul` into the zero splat, at `(p, j)`: row `p` of the left operand against column `j` of the right. -/
theorem matmul_at (l : FVec Ideal S1024x512 .bf16) (r : FVec Ideal S512x1536 .bf16) (p : Fin 1024) (j : Fin 1536) :
    matmul D none l r (constant (F := Ideal) S1024x1536 .f32 0x00000000#32) (ix2 p j) = ∑ k : Fin 512, l (ix2 p k) * r (ix2 k j) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p j) ((contrEquiv1 D 512 rfl rfl).symm k) = ix2 p k := funext fun a => Fin.ext (by
    match a with
    | ⟨0, _⟩ => exact lhs0 _ _
    | ⟨1, _⟩ => exact (lhs1 _ _).trans hk)
  have er : D.rhsIdx (ix2 p j) ((contrEquiv1 D 512 rfl rfl).symm k) = ix2 k j := funext fun a => Fin.ext (by
    match a with
    | ⟨0, _⟩ => exact (rhs0 _ _).trans hk
    | ⟨1, _⟩ => exact rhs1 _ _)
  rw [el, er]

/-! ## The body's value in named pieces -/

variable (x0 x1 : FVec Ideal S1024x512 .f32) (w2 w3 : FVec Ideal S512x1536 .bf16) (b4 : FVec Ideal S1x1024 .f32)
  (b5 b6 : FVec Ideal S1x512 .f32)

/-- An activation block times a packed weight. -/
def px (x : FVec Ideal S1024x512 .f32) (w : FVec Ideal S512x1536 .bf16) : FVec Ideal S1024x1536 .f32 :=
  matmul D none (truncf .bf16 x bitsLt_bf16_f32) (shapeCast S512x1536 w shapeCasts_S512x1536_S512x1536)
    (constant S1024x1536 .f32 0x00000000#32)

/-- The gate pre-activations of the block: the two products' first 1024 columns added, plus the gate bias row. -/
def gatesV : FVec Ideal S1024x1024 .f32 :=
  addf (addf (extractStridedSlice S1024x1024 ![0, 0] (px x0 w2) slices_S1024x1536_o0_0_S1024x1024)
      (extractStridedSlice S1024x1024 ![0, 0] (px x1 w3) slices_S1024x1536_o0_0_S1024x1024))
    (broadcastTo S1024x1024 (shapeCast S1x1024 b4 shapeCasts_S1x1024_S1x1024) broadcasts_S1x1024_S1024x1024)

/-- A candidate part: a product's last 512 columns plus its bias row. -/
def candV (x : FVec Ideal S1024x512 .f32) (w : FVec Ideal S512x1536 .bf16) (b : FVec Ideal S1x512 .f32) : FVec Ideal S1024x512 .f32 :=
  addf (extractStridedSlice S1024x512 ![0, 1024] (px x w) slices_S1024x1536_o0_1024_S1024x512)
    (broadcastTo S1024x512 (shapeCast S1x512 b shapeCasts_S1x512_S1x512) broadcasts_S1x512_S1024x512)

/-- The stored value is these pieces combined elementwise. -/
theorem pay_struct : k0_pay1 (F := Ideal) x0 x1 w2 w3 b4 b5 b6
    = addf (mulf (subf (broadcast S1024x512 (Scalar.ofBits .f32 0x3F800000#32))
          (logistic (extractStridedSlice S1024x512 ![0, 512] (gatesV x0 x1 w2 w3 b4) slices_S1024x1024_o0_512_S1024x512)))
        (tanh (addf (candV x0 w2 b5)
          (mulf (logistic (extractStridedSlice S1024x512 ![0, 0] (gatesV x0 x1 w2 w3 b4) slices_S1024x1024_o0_0_S1024x512))
            (candV x1 w3 b6)))))
      (mulf (logistic (extractStridedSlice S1024x512 ![0, 512] (gatesV x0 x1 w2 w3 b4) slices_S1024x1024_o0_512_S1024x512)) x1) := rfl

theorem px_at (x : FVec Ideal S1024x512 .f32) (w : FVec Ideal S512x1536 .bf16) (p : Fin 1024) (j : Fin 1536) :
    px x w (ix2 p j) = ∑ k : Fin 512, x (ix2 p k) * w (ix2 k j) := by
  unfold px
  rw [shapeCast_self]
  exact matmul_at _ _ p j

theorem gatesV_at (p : Fin 1024) (j : Fin 1024) :
    gatesV x0 x1 w2 w3 b4 (ix2 p j)
      = (∑ k : Fin 512, x0 (ix2 p k) * w2 (ix2 k (gcol j))) + (∑ k : Fin 512, x1 (ix2 p k) * w3 (ix2 k (gcol j))) + b4 (ix2 (0 : Fin 1) j) := by
  show extractStridedSlice S1024x1024 ![0, 0] (px x0 w2) _ (ix2 p j) + extractStridedSlice S1024x1024 ![0, 0] (px x1 w3) _ (ix2 p j)
      + broadcastTo S1024x1024 (shapeCast S1x1024 b4 _) _ (ix2 p j) = _
  rw [slice2_axis1_apply 0 (px x0 w2) _ p j (gcol j) (by show j.val = 0 + j.val; omega),
    slice2_axis1_apply 0 (px x1 w3) _ p j (gcol j) (by show j.val = 0 + j.val; omega), px_at, px_at,
    broadcastTo_1b_ab_apply, shapeCast_self]

theorem candV_at (x : FVec Ideal S1024x512 .f32) (w : FVec Ideal S512x1536 .bf16) (b : FVec Ideal S1x512 .f32) (p : Fin 1024) (q : Fin 512) :
    candV x w b (ix2 p q) = (∑ k : Fin 512, x (ix2 p k) * w (ix2 k (ccol q))) + b (ix2 (0 : Fin 1) q) := by
  show extractStridedSlice S1024x512 ![0, 1024] (px x w) _ (ix2 p q) + broadcastTo S1024x512 (shapeCast S1x512 b _) _ (ix2 p q) = _
  rw [slice2_axis1_apply 1024 (px x w) _ p q (ccol q) rfl, px_at, broadcastTo_1b_ab_apply, shapeCast_self]

/-- THE BODY'S VALUE AT `(p, q)` is the cell formula of row `p` of the two activation blocks and the packed weights. -/
theorem pay_at (p : Fin 1024) (q : Fin 512) :
    k0_pay1 (F := Ideal) x0 x1 w2 w3 b4 b5 b6 (ix2 p q)
      = cell (fun k => x0 (ix2 p k)) (fun k => x1 (ix2 p k)) (fun j k => w2 (ix2 k (gcol j))) (fun j k => w3 (ix2 k (gcol j)))
          (fun j => b4 (ix2 (0 : Fin 1) j)) (fun j k => w2 (ix2 k (ccol j))) (fun j k => w3 (ix2 k (ccol j)))
          (fun j => b5 (ix2 (0 : Fin 1) j)) (fun j => b6 (ix2 (0 : Fin 1) j)) q := by
  rw [pay_struct]
  show (one - FloatOps.logistic (extractStridedSlice S1024x512 ![0, 512] (gatesV x0 x1 w2 w3 b4) _ (ix2 p q)))
        * FloatOps.tanh (candV x0 w2 b5 (ix2 p q)
            + FloatOps.logistic (extractStridedSlice S1024x512 ![0, 0] (gatesV x0 x1 w2 w3 b4) _ (ix2 p q)) * candV x1 w3 b6 (ix2 p q))
      + FloatOps.logistic (extractStridedSlice S1024x512 ![0, 512] (gatesV x0 x1 w2 w3 b4) _ (ix2 p q)) * x1 (ix2 p q) = _
  rw [slice2_axis1_apply 512 (gatesV x0 x1 w2 w3 b4) _ p q (hi q) rfl,
    slice2_axis1_apply 0 (gatesV x0 x1 w2 w3 b4) _ p q (lo q) (by show q.val = 0 + q.val; omega),
    gatesV_at, gatesV_at, candV_at, candV_at]
  rfl

end Cert.KernelIdeal.Hand

end
-- ==== Proof.HostPrep.lean ====
/-
  The weight arrays the pallas_call is handed, read back to the arguments.

  Before the call @main packs the weights by columns: `Wx = [ (W_gate[:, :512])ᵀ | W_iᵀ ]` and
  `Whh = [ (W_gate[:, 512:])ᵀ | W_hᵀ ]`, each [512, 1536] (then a change of float format, the identity at the ideal
  values), and reshapes the three bias vectors to one-row matrices. So at row `k`:
    Wx[k, j] = W_gate[j, k],  Whh[k, j] = W_gate[j, 512 + k]      for a gate column j < 1024,
    Wx[k, 1024 + q] = W_i[q, k],  Whh[k, 1024 + q] = W_h[q, k]     for a candidate column,
  and each bias row at column `j` is the bias vector at `j`.
-/
import proofs.«175805_j87703232184582_2_alg».proof.Proof.Gen.KernelIdeal.Frame
import proofs.«175805_j87703232184582_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostPrep

open Cert.KernelIdeal Cert.KernelIdeal.Gen Idealize.ShloMosaic Idealize.ShloMosaic.TcCoe Idealize.SL.Sem
open Idealize.ShloMosaic.ValueIdx Idealize.ShloMosaic.StableHlo Cert.Gru

variable (m : (ℓ : Loc nD τ sig) → Buf (Elt Ideal) ℓ)

/-! ## The host operations' terms -/

/-- `Wx` as the region finds it. -/
theorem wx_eq (c : Dev nD) : (V m c main_v7 : S512x1536.Idx → EReal)
    = (truncf (F := Ideal) .bf16 (concatenate S512x1536 1 [⟨S512x1024, transpose S512x1024 [1, 0] (extractStridedSlice S1024x512 ![0, 0] (m ((c : Thread nD τ).loc main_arg2) : S1024x1024.Idx → EReal) slices_S1024x1024_S1024x512_0_0) transposes_S1024x512_S512x1024_1_0⟩, ⟨S512x512, transpose S512x512 [1, 0] (m ((c : Thread nD τ).loc main_arg4) : S512x512.Idx → EReal) transposes_S512x512_S512x512_1_0⟩] concatenates_S512x1024_S512x512_S512x1536_d1) bitsLt_bf16_f32 : S512x1536.Idx → EReal) := by
  dsimp only [V, hostOps0]
  after_results

/-- `Whh` as the region finds it. -/
theorem whh_eq (c : Dev nD) : (V m c main_v9 : S512x1536.Idx → EReal)
    = (truncf (F := Ideal) .bf16 (concatenate S512x1536 1 [⟨S512x1024, transpose S512x1024 [1, 0] (extractStridedSlice S1024x512 ![0, 512] (m ((c : Thread nD τ).loc main_arg2) : S1024x1024.Idx → EReal) slices_S1024x1024_S1024x512_0_512) transposes_S1024x512_S512x1024_1_0⟩, ⟨S512x512, transpose S512x512 [1, 0] (m ((c : Thread nD τ).loc main_arg6) : S512x512.Idx → EReal) transposes_S512x512_S512x512_1_0⟩] concatenates_S512x1024_S512x512_S512x1536_d1) bitsLt_bf16_f32 : S512x1536.Idx → EReal) := by
  dsimp only [V, hostOps0]
  after_results

theorem bgate_eq (c : Dev nD) : (V m c main_v10 : S1x1024.Idx → EReal)
    = (shapeCast S1x1024 (m ((c : Thread nD τ).loc main_arg3) : S1024.Idx → EReal) shapeCasts_S1024_S1x1024 : S1x1024.Idx → EReal) := by
  dsimp only [V, hostOps0]
  after_results
  try rfl

theorem bi_eq (c : Dev nD) : (V m c main_v11 : S1x512.Idx → EReal)
    = (shapeCast S1x512 (m ((c : Thread nD τ).loc main_arg5) : S512.Idx → EReal) shapeCasts_S512_S1x512 : S1x512.Idx → EReal) := by
  dsimp only [V, hostOps0]
  after_results
  try rfl

theorem bh_eq (c : Dev nD) : (V m c main_v12 : S1x512.Idx → EReal)
    = (shapeCast S1x512 (m ((c : Thread nD τ).loc main_arg7) : S512.Idx → EReal) shapeCasts_S512_S1x512 : S1x512.Idx → EReal) := by
  dsimp only [V, hostOps0]
  after_results
  try rfl

/-! ## Read at an element -/

/-- A gate column of `Wx`: the first half of a row of `W_gate`. -/
theorem wx_gate (c : Dev nD) (k : Fin 512) (j : Fin 1024) :
    (V m c main_v7 : S512x1536.Idx → EReal) (ix2 k (gcol j)) = (m ((c : Thread nD τ).loc main_arg2) : S1024x1024.Idx → EReal) (ix2 j (lo k)) := by
  rw [wx_eq, truncf_apply,
    concatenate_pair_apply_left (t := S512x1536) (s₁ := S512x1024) (s₂ := S512x512) (1 : Fin 2) _ _ _ (ix2 k (gcol j)) rfl (ix2 k j) (fun a => match a with | ⟨0, _⟩ => rfl | ⟨1, _⟩ => rfl),
    transpose_ix2_apply, slice2_axis1_apply 0 _ _ j k (lo k) (by show k.val = 0 + k.val; omega)]

/-- A candidate column of `Wx`: a row of `W_i`. -/
theorem wx_cand (c : Dev nD) (k : Fin 512) (q : Fin 512) :
    (V m c main_v7 : S512x1536.Idx → EReal) (ix2 k (ccol q)) = (m ((c : Thread nD τ).loc main_arg4) : S512x512.Idx → EReal) (ix2 q k) := by
  rw [wx_eq, truncf_apply,
    concatenate_pair_apply_right (t := S512x1536) (s₁ := S512x1024) (s₂ := S512x512) (1 : Fin 2) _ _ _ (ix2 k (ccol q)) rfl rfl (ix2 k q)
      (fun a ha => match a, ha with | ⟨0, _⟩, _ => rfl | ⟨1, _⟩, ha => absurd rfl ha)
      (by show q.val + 1024 = 1024 + q.val; omega),
    transpose_ix2_apply]

/-- A gate column of `Whh`: the second half of a row of `W_gate`. -/
theorem whh_gate (c : Dev nD) (k : Fin 512) (j : Fin 1024) :
    (V m c main_v9 : S512x1536.Idx → EReal) (ix2 k (gcol j)) = (m ((c : Thread nD τ).loc main_arg2) : S1024x1024.Idx → EReal) (ix2 j (hi k)) := by
  rw [whh_eq, truncf_apply,
    concatenate_pair_apply_left (t := S512x1536) (s₁ := S512x1024) (s₂ := S512x512) (1 : Fin 2) _ _ _ (ix2 k (gcol j)) rfl (ix2 k j) (fun a => match a with | ⟨0, _⟩ => rfl | ⟨1, _⟩ => rfl),
    transpose_ix2_apply, slice2_axis1_apply 512 _ _ j k (hi k) rfl]

/-- A candidate column of `Whh`: a row of `W_h`. -/
theorem whh_cand (c : Dev nD) (k : Fin 512) (q : Fin 512) :
    (V m c main_v9 : S512x1536.Idx → EReal) (ix2 k (ccol q)) = (m ((c : Thread nD τ).loc main_arg6) : S512x512.Idx → EReal) (ix2 q k) := by
  rw [whh_eq, truncf_apply,
    concatenate_pair_apply_right (t := S512x1536) (s₁ := S512x1024) (s₂ := S512x512) (1 : Fin 2) _ _ _ (ix2 k (ccol q)) rfl rfl (ix2 k q)
      (fun a ha => match a, ha with | ⟨0, _⟩, _ => rfl | ⟨1, _⟩, ha => absurd rfl ha)
      (by show q.val + 1024 = 1024 + q.val; omega),
    transpose_ix2_apply]

/-- The three bias rows. -/
theorem bgate_row (c : Dev nD) (j : Fin 1024) :
    (V m c main_v10 : S1x1024.Idx → EReal) (ix2 (0 : Fin 1) j) = (m ((c : Thread nD τ).loc main_arg3) : S1024.Idx → EReal) (ix1 j) := by
  rw [bgate_eq, shapeCast_a_1a_apply]
theorem bi_row (c : Dev nD) (q : Fin 512) :
    (V m c main_v11 : S1x512.Idx → EReal) (ix2 (0 : Fin 1) q) = (m ((c : Thread nD τ).loc main_arg5) : S512.Idx → EReal) (ix1 q) := by
  rw [bi_eq, shapeCast_a_1a_apply]
theorem bh_row (c : Dev nD) (q : Fin 512) :
    (V m c main_v12 : S1x512.Idx → EReal) (ix2 (0 : Fin 1) q) = (m ((c : Thread nD τ).loc main_arg7) : S512.Idx → EReal) (ix1 q) := by
  rw [bh_eq, shapeCast_a_1a_apply]

end Cert.KernelIdeal.HostPrep

end
-- ==== Proof.Blocks.lean ====
/-
  From the blocks to the array: after the kernel's run its output array IS the specification of the arguments.

  The grid has 16 points; at point `t` the two activation windows and the output window hold rows
  `1024·t … 1024·t + 1023` of their arrays (block index `(t, 0)`), and the five weight and bias windows hold their
  whole arrays (block index `(0, 0)`). So row `p` of the activation blocks at point `t` is row `1024·t + p` of the
  arguments, the packed weights are read back to the arguments (the host preparation), and what point `t` writes
  back is block `t` of the specification. The 16 blocks cover the [16384, 512] array: row `r` is in block `r / 1024`.
-/
import proofs.«175805_j87703232184582_2_alg».proof.Proof.Gen.KernelIdeal.Value
import proofs.«175805_j87703232184582_2_alg».proof.Proof.KernelCell
import proofs.«175805_j87703232184582_2_alg».proof.Proof.HostPrep
import Idealize.ShloMosaic.Lib.Pipeline.Value

noncomputable section

namespace Cert.KernelIdeal.Blocks

open Cert.KernelIdeal Cert.KernelIdeal.Gen Cert.KernelIdeal.Hand Cert.KernelIdeal.HostPrep
open Idealize.ShloMosaic Idealize.ShloMosaic.TcCoe Idealize.SL.Sem Idealize.ShloMosaic.ValueIdx Cert.Gru
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification of the arguments as launched on core `c`. -/
abbrev spec (c : Dev nD) : S16384x512.Idx → EReal :=
  newHidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The array row under row `p` of the block of point `t`. -/
def row (t : Fin cfg0.N) (p : Fin 1024) : Fin 16384 :=
  ⟨t.val * 1024 + p.val, by have h := t.isLt; have hN : cfg0.N = 16 := N_0; omega⟩

/-- The printed index maps over the grid: the activation and output windows move down the rows with the point, the
    weight and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks at an element -/

theorem x_at (c : Dev nD) (t : Fin cfg0.N) (p : Fin 1024) (k : Fin 512) :
    (iblk m c 0 t : S1024x512.Idx → EReal) (ix2 p k) = (m ((c : Thread nD τ).loc main_arg0) : S16384x512.Idx → EReal) (ix2 (row t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 512 + 1 * k.val = k.val; rw [e1]; omega

theorem h_at (c : Dev nD) (t : Fin cfg0.N) (p : Fin 1024) (k : Fin 512) :
    (iblk m c 1 t : S1024x512.Idx → EReal) (ix2 p k) = (m ((c : Thread nD τ).loc main_arg1) : S16384x512.Idx → EReal) (ix2 (row t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 512 + 1 * k.val = k.val; rw [e1]; omega

theorem wx_at (c : Dev nD) (t : Fin cfg0.N) (k : Fin 512) (j : Fin 1536) :
    (iblk m c 2 t : S512x1536.Idx → EReal) (ix2 k j) = (V m c main_v7 : S512x1536.Idx → EReal) (ix2 k j) := by
  obtain ⟨-, -, -, -, e0, e1, -⟩ := idx_facts t
  show V m c main_v7 (((cfg0.win 2).blk t).view.emb (ix2 k j)) = _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 1536 + 1 * j.val = j.val; rw [e1]; omega

theorem whh_at (c : Dev nD) (t : Fin cfg0.N) (k : Fin 512) (j : Fin 1536) :
    (iblk m c 3 t : S512x1536.Idx → EReal) (ix2 k j) = (V m c main_v9 : S512x1536.Idx → EReal) (ix2 k j) := by
  obtain ⟨-, -, -, -, -, -, e0, e1, -⟩ := idx_facts t
  show V m c main_v9 (((cfg0.win 3).blk t).view.emb (ix2 k j)) = _
  refine congrArg _ (funext fun a => Fin.ext ?_)
  match a with
  | ⟨0, _⟩ => show win0_3.index t (0 : Fin 2) * 512 + 1 * k.val = k.val; rw [e0]; omega
  | ⟨1, _⟩ => show win0_3.index t (1 : Fin 2) * 1536 + 1 * j.val = j.val; rw [e1]; omega

theorem bgate_at (c : Dev nD) (t : Fin cfg0.N) (j : Fin 1024) :
    (iblk m c 4 t : S1x1024.Idx → EReal) (ix2 (0 : Fin 1) j) = (V m c main_v10 : S1x1024.Idx → EReal) (ix2 (0 : Fin 1) j) := by
  obtain ⟨-, -, -, -, -, -, -, -, e0, e1, -⟩ := idx_facts t
  show V m c main_v10 (((cfg0.win 4).blk t).view.emb (ix2 (0 : Fin 1) j)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * j.val = j.val; rw [e1]; omega

theorem bi_at (c : Dev nD) (t : Fin cfg0.N) (q : Fin 512) :
    (iblk m c 5 t : S1x512.Idx → EReal) (ix2 (0 : Fin 1) q) = (V m c main_v11 : S1x512.Idx → EReal) (ix2 (0 : Fin 1) q) := by
  obtain ⟨-, -, -, -, -, -, -, -, -, -, e0, e1, -⟩ := idx_facts t
  show V m c main_v11 (((cfg0.win 5).blk t).view.emb (ix2 (0 : Fin 1) q)) = _
  refine congrArg _ (funext fun a => Fin.ext ?_)
  match a with
  | ⟨0, _⟩ => show win0_5.index t (0 : Fin 2) * 1 + 1 * 0 = 0; rw [e0]
  | ⟨1, _⟩ => show win0_5.index t (1 : Fin 2) * 512 + 1 * q.val = q.val; rw [e1]; omega

theorem bh_at (c : Dev nD) (t : Fin cfg0.N) (q : Fin 512) :
    (iblk m c 6 t : S1x512.Idx → EReal) (ix2 (0 : Fin 1) q) = (V m c main_v12 : S1x512.Idx → EReal) (ix2 (0 : Fin 1) q) := by
  obtain ⟨-, -, -, -, -, -, -, -, -, -, -, -, e0, e1, -⟩ := idx_facts t
  show V m c main_v12 (((cfg0.win 6).blk t).view.emb (ix2 (0 : Fin 1) q)) = _
  refine congrArg _ (funext fun a => Fin.ext ?_)
  match a with
  | ⟨0, _⟩ => show win0_6.index t (0 : Fin 2) * 1 + 1 * 0 = 0; rw [e0]
  | ⟨1, _⟩ => show win0_6.index t (1 : Fin 2) * 512 + 1 * q.val = q.val; rw [e1]; omega

/-! ## What a point writes back -/

/-- WHAT POINT `t` WRITES BACK is block `t` of the specification. -/
theorem flushed_eq (c : Dev nD) (t : Fin cfg0.N) :
    (dats m 0 c).flushed 7 t = ((cfg0.win 7).blk t).view.read (Elt Ideal) (spec m c) := by
  rw [Value.flushed7]
  unfold out0_7
  rw [View.canon_unit_zero hz]
  simp only [View.ld_unit_zero (S := S1024x512) hz, View.ld_unit_zero (S := S512x1536) hz, View.ld_unit_zero (S := S1x1024) hz,
    View.ld_unit_zero (S := S1x512) hz]
  funext y
  obtain ⟨p, q, rfl⟩ : ∃ (p : Fin 1024) (q : Fin 512), y = ix2 p q := ⟨y 0, y 1, eq_ix2 y⟩
  have he : ((cfg0.win 7).blk t).view.emb (ix2 p q) = (ix2 (row t p) q : S16384x512.Idx) := by
    obtain ⟨-, -, -, -, -, -, -, -, -, -, -, -, -, -, e0, e1⟩ := idx_facts t
    refine funext fun a => Fin.ext ?_
    match a with
    | ⟨0, _⟩ => show win0_7.index t (0 : Fin 2) * 1024 + 1 * p.val = t.val * 1024 + p.val; rw [e0]; omega
    | ⟨1, _⟩ => show win0_7.index t (1 : Fin 2) * 512 + 1 * q.val = q.val; rw [e1]; omega
  show k0_pay1 (iblk m c 0 t) (iblk m c 1 t) (iblk m c 2 t) (iblk m c 3 t) (iblk m c 4 t) (iblk m c 5 t) (iblk m c 6 t) (ix2 p q)
    = spec m c (((cfg0.win 7).blk t).view.emb (ix2 p q))
  rw [he, pay_at]
  show _ = newHiddenAt _ _ _ _ _ _ _ _ (row t p) q
  unfold newHiddenAt
  exact cell_congr q (x_at m c t p) (h_at m c t p)
    (fun j k => (wx_at m c t k (gcol j)).trans (wx_gate m c k j))
    (fun j k => (whh_at m c t k (gcol j)).trans (whh_gate m c k j))
    (fun j => (bgate_at m c t j).trans (bgate_row m c j))
    (fun j k => (wx_at m c t k (ccol j)).trans (wx_cand m c k j))
    (fun j k => (whh_at m c t k (ccol j)).trans (whh_cand m c k j))
    (fun j => (bi_at m c t j).trans (bi_row m c j))
    (fun j => (bh_at m c t j).trans (bh_row m c j))

/-! ## The cover, the array, the run -/

/-- An index of the array is in point `t`'s block iff each coordinate is in the block's range on its axis. -/
theorem mem_blk (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v13).slice (win0_7.rect t)).set ↔ _
  rw [View.set_slice_whole, Rect.mem_set_unit]
  exact Iff.rfl

/-- Every index of the output array is in the block of the point its row falls in. -/
theorem cover (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 16 := N_0
  have ht : (i 0).val / 1024 < cfg0.N := by rw [hN]; omega
  obtain ⟨-, -, -, -, -, -, -, -, -, -, -, -, -, -, e0, e1⟩ := idx_facts ⟨(i 0).val / 1024, ht⟩
  refine ⟨⟨(i 0).val / 1024, ht⟩, flush0_7 _, ?_⟩
  rw [mem_blk]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, ht⟩ (1 : Fin 2) * 512 ≤ (i 1).val ∧ (i 1).val < win0_7.index ⟨(i 0).val / 1024, ht⟩ (1 : Fin 2) * 512 + 512
    rw [e1]; omega

/-- THE OUTPUT ARRAY after the run is the specification. -/
theorem final (c : Dev nD) : (dats m 0 c).arrAt 7 cfg0.N = spec m c :=
  (dats m 0 c).arrAt_eq_of_cover 7 (spec m c) (fun t _ => flushed_eq m c t) (cover)

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v13) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Blocks

end
-- ==== Proof.lean ====
/-
  A gated recurrent cell: a Pallas kernel over 16 row blocks against its jnp reference, equal on the extended reals.

  Both programs compute, for batch row `b` and hidden column `q`,
    out[b, q] = (1 − z) · tanh (ig + r · hg) + z · hidden[b, q],
  with `r`, `z` the sigmoids of the gate pre-activations and `ig`, `hg` the candidate's two linear maps
  (Proof/Spec.lean states it as `Cert.Gru.newHidden`). They differ in layout only: the reference joins `[x | h]` and
  multiplies once by the transposed [1024, 1024] gate matrix, and spells its sigmoids `1 / (1 + e^(−g))`; the kernel
  multiplies `x` and `h` separately by column-packed [512, 1536] weights prepared on the host, slices the products,
  and uses the chip's logistic. The one algebraic step is splitting a sum over 1024 positions at 512 — a regrouping
  in a commutative monoid, so the precondition (finite inputs) is never opened.

  Proof/RefValue.lean: the reference's result is the specification. Proof/KernelCell.lean: the kernel body's value at
  an element. Proof/HostPrep.lean: the packed weights read back to the arguments. Proof/Blocks.lean: the 16 blocks
  assemble to the specification, and the kernel's run. The ideal pass rewrote nothing, so `preserves` is trivial.
-/
import proofs.«175805_j87703232184582_2_alg».proof.Defs
import proofs.«175805_j87703232184582_2_alg».proof.Proof.Gen.Kernel
import proofs.«175805_j87703232184582_2_alg».proof.Proof.Gen.Kernel.Frame
import proofs.«175805_j87703232184582_2_alg».proof.Proof.Gen.KernelIdeal
import proofs.«175805_j87703232184582_2_alg».proof.Proof.Gen.KernelIdeal.Frame
import proofs.«175805_j87703232184582_2_alg».proof.Proof.Gen.KernelIdeal.Value
import proofs.«175805_j87703232184582_2_alg».proof.Proof.Gen.ReferenceIdeal
import proofs.«175805_j87703232184582_2_alg».proof.Proof.Gen.ReferenceIdeal.Run
import proofs.«175805_j87703232184582_2_alg».proof.Proof.Gen.ReferenceIdeal.Read
import proofs.«175805_j87703232184582_2_alg».proof.Proof.Gen.Pre_finite_inputs
import proofs.«175805_j87703232184582_2_alg».proof.Proof.RefValue
import proofs.«175805_j87703232184582_2_alg».proof.Proof.Blocks

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- Run from memories that agree on the arguments, both idealized programs end with the specification of those
    arguments in their result array. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v37_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
